-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x2 : Shape := ⟨3, ![64, 512, 2]⟩
abbrev S1x2x2048 : Shape := ⟨3, ![1, 2, 2048]⟩
abbrev S_ : Shape := ⟨0, ![]⟩

class Facts : Prop where
  bcast_S_S64x512x2 : S_.BroadcastsInDim S64x512x2 (![] : Fin 0 → Fin S64x512x2.rank)
  reducesTo_S64x512x2_S_d0_1_2 : S64x512x2.ReducesTo [0, 1, 2] S_
  h_S_ : 0 < S_.numel
  bcast_S_S1x2x2048 : S_.BroadcastsInDim S1x2x2048 (![] : Fin 0 → Fin S1x2x2048.rank)
  reducesTo_S1x2x2048_S_d0_1_2 : S1x2x2048.ReducesTo [0, 1, 2] S_

variable [Facts]

def fn {F : FTy → Type} [FloatOps F] (main_arg0 : FVec F S64x512x2 .f32) (main_arg1 : FVec F S1x2x2048 .f32) : IVec S_ 1 :=
  let main_v0 : FVec F S64x512x2 .f32 := Host.absf main_arg0
  let main_cst : FVec F S_ .f32 := constant S_ .f32 0x7F800000#32
  let main_v1 : FVec F S64x512x2 .f32 := broadcastInDim S64x512x2 ![] bcast_S_S64x512x2 main_cst
  let main_v2 : IVec S64x512x2 1 := cmpf .olt main_v0 main_v1
  let main_c : IVec S_ 1 := constantI S_ 1 1#1
  let main_v3 : IVec S_ 1 := (fun x v => Host.reduce IntOp.andi x v reducesTo_S64x512x2_S_d0_1_2 h_S_) main_v2 main_c
  let main_v4 : FVec F S1x2x2048 .f32 := Host.absf main_arg1
  let main_cst_0 : FVec F S_ .f32 := constant S_ .f32 0x7F800000#32
  let main_v5 : FVec F S1x2x2048 .f32 := broadcastInDim S1x2x2048 ![] bcast_S_S1x2x2048 main_cst_0
  let main_v6 : IVec S1x2x2048 1 := cmpf .olt main_v4 main_v5
  let main_c_1 : IVec S_ 1 := constantI S_ 1 1#1
  let main_v7 : IVec S_ 1 := (fun x v => Host.reduce IntOp.andi x v reducesTo_S1x2x2048_S_d0_1_2 h_S_) main_v6 main_c_1
  let main_v8 : IVec S_ 1 := andi main_v3 main_v7
  main_v8
-- ==== Kernel.lean ====
abbrev S64x512x2 : Shape := ⟨3, ![64, 512, 2]⟩
abbrev S1x2x2048 : Shape := ⟨3, ![1, 2, 2048]⟩
abbrev S64x1 : Shape := ⟨2, ![64, 1]⟩
abbrev S8x128x2 : Shape := ⟨3, ![8, 128, 2]⟩
abbrev S8x1 : Shape := ⟨2, ![8, 1]⟩
abbrev S2x2048 : Shape := ⟨2, ![2, 2048]⟩
abbrev S8x128x1 : Shape := ⟨3, ![8, 128, 1]⟩
abbrev S8x128 : Shape := ⟨2, ![8, 128]⟩
abbrev S1x2048 : Shape := ⟨2, ![1, 2048]⟩
abbrev S2048 : Shape := ⟨1, ![2048]⟩
abbrev S1x1x2048 : Shape := ⟨3, ![1, 1, 2048]⟩
abbrev S8x128x2048 : Shape := ⟨3, ![8, 128, 2048]⟩
abbrev S8 : Shape := ⟨1, ![8]⟩

abbrev nBuf : Space → Nat
  | .hbm => 3
  | .vmem => 5
  | .smem => 0
  | _ => 0

abbrev bufTy : (tb : Table) → Fin (tcTables nBuf tb) → BufTy
  | .hbm, ⟨0, _⟩ => ⟨S64x512x2, .f32⟩
  | .hbm, ⟨1, _⟩ => ⟨S1x2x2048, .f32⟩
  | .hbm, ⟨2, _⟩ => ⟨S64x1, .f32⟩
  | .local _ .vmem, ⟨0, _⟩ => ⟨S8x128x2, .f32⟩
  | .local _ .vmem, ⟨1, _⟩ => ⟨S8x128x2, .f32⟩
  | .local _ .vmem, ⟨2, _⟩ => ⟨S1x2x2048, .f32⟩
  | .local _ .vmem, ⟨3, _⟩ => ⟨S8x1, .f32⟩
  | .local _ .vmem, ⟨4, _⟩ => ⟨S8x1, .f32⟩
  | _, _ => ⟨S64x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x1_S8x1_0_0 : ∀ a, (![0, 0] : Fin 2 → Nat) a + S8x1.size a ≤ S8x1.size a
  h_S8x1 : 0 < S8x1.numel
  inb_S8x128x2_S8x128x2_0_0_0 : ∀ a, (![0, 0, 0] : Fin 3 → Nat) a + S8x128x2.size a ≤ S8x128x2.size a
  h_S8x128x2 : 0 < S8x128x2.numel
  inb_S1x2x2048_S1x2x2048_0_0_0 : ∀ a, (![0, 0, 0] : Fin 3 → Nat) a + S1x2x2048.size a ≤ S1x2x2048.size a
  h_S1x2x2048 : 0 < S1x2x2048.numel
  shapeCasts_S1x2x2048_S2x2048 : S1x2x2048.ShapeCasts S2x2048
  slices_S8x128x2_o0_0_0_S8x128x1 : S8x128x2.Slices ![0, 0, 0] S8x128x1
  shapeCasts_S8x128x1_S8x128 : S8x128x1.ShapeCasts S8x128
  slices_S8x128x2_o0_0_1_S8x128x1 : S8x128x2.Slices ![0, 0, 1] S8x128x1
  slices_S2x2048_o0_0_S1x2048 : S2x2048.Slices ![0, 0] S1x2048
  shapeCasts_S1x2048_S2048 : S1x2048.ShapeCasts S2048
  slices_S2x2048_o1_0_S1x2048 : S2x2048.Slices ![1, 0] S1x2048
  shapeCasts_S8x128_S8x128x1 : S8x128.ShapeCasts S8x128x1
  shapeCasts_S2048_S1x1x2048 : S2048.ShapeCasts S1x1x2048
  broadcasts_S8x128x1_S8x128x2048 : S8x128x1.Broadcasts S8x128x2048
  broadcasts_S1x1x2048_S8x128x2048 : S1x1x2048.Broadcasts S8x128x2048
  reduces_S8x128x2048_S8x128 : S8x128x2048.Reduces [2] S8x128
  reduces_S8x128_S8 : S8x128.Reduces [1] S8
  shapeCasts_S8_S8x1 : S8.ShapeCasts S8x1
  shapeCasts_S8x1_S8x1 : S8x1.ShapeCasts S8x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x2.size a ≤ S64x512x2.size a
  hwx0_0 : ∀ i : grid0.Coords, EltTy.bits .f32 = 32 ∨ (Rect.block (s := S64x512x2) S8x128x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2x2048.size a ≤ S1x2x2048.size a
  hwx0_1 : ∀ i : grid0.Coords, EltTy.bits .f32 = 32 ∨ (Rect.block (s := S1x2x2048) S1x2x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S64x1.size a
  hwx0_2 : ∀ i : grid0.Coords, EltTy.bits .f32 = 32 ∨ (Rect.block (s := S64x1) S8x1.size (cc0_transform_2 i) (hinb0_2 i)).WholeWords (EltTy.packing .f32)

variable [Facts₀]

abbrev win0_0 : Pipeline.Window sig grid0 :=
  Pipeline.Window.ofSpec (Memref.whole main_arg0) S8x128x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x2 : Shape := ⟨3, ![64, 512, 2]⟩
abbrev S1x2x2048 : Shape := ⟨3, ![1, 2, 2048]⟩
abbrev S64x512x2x1 : Shape := ⟨4, ![64, 512, 2, 1]⟩
abbrev S1x1x2x2048 : Shape := ⟨4, ![1, 1, 2, 2048]⟩
abbrev S64x512x2x2048 : Shape := ⟨4, ![64, 512, 2, 2048]⟩
abbrev S_ : Shape := ⟨0, ![]⟩
abbrev S64x512x1x2048 : Shape := ⟨4, ![64, 512, 1, 2048]⟩
abbrev S64x512x2048 : Shape := ⟨3, ![64, 512, 2048]⟩
abbrev S64x512 : Shape := ⟨2, ![64, 512]⟩
abbrev S64 : Shape := ⟨1, ![64]⟩
abbrev S64x1 : Shape := ⟨2, ![64, 1]⟩

abbrev nBuf : Space → Nat
  | .hbm => 40
  | .vmem => 0
  | .smem => 0
  | _ => 0

abbrev bufTy : (tb : Table) → Fin (tcTables nBuf tb) → BufTy
  | .hbm, ⟨0, _⟩ => ⟨S64x512x2, .f32⟩
  | .hbm, ⟨1, _⟩ => ⟨S1x2x2048, .f32⟩
  | .hbm, ⟨2, _⟩ => ⟨S64x512x2x1, .f32⟩
  | .hbm, ⟨3, _⟩ => ⟨S1x1x2x2048, .f32⟩
  | .hbm, ⟨4, _⟩ => ⟨S64x512x2x2048, .f32⟩
  | .hbm, ⟨5, _⟩ => ⟨S64x512x2x2048, .f32⟩
  | .hbm, ⟨6, _⟩ => ⟨S64x512x2x2048, .f32⟩
  | .hbm, ⟨7, _⟩ => ⟨S_, .f32⟩
  | .hbm, ⟨8, _⟩ => ⟨S64x512x2x2048, .f32⟩
  | .hbm, ⟨9, _⟩ => ⟨S64x512x2x2048, .f32⟩
  | .hbm, ⟨10, _⟩ => ⟨S64x512x2x2048, .f32⟩
  | .hbm, ⟨11, _⟩ => ⟨S64x512x2x2048, .f32⟩
  | .hbm, ⟨12, _⟩ => ⟨S_, .f32⟩
  | .hbm, ⟨13, _⟩ => ⟨S64x512x2x2048, .f32⟩
  | .hbm, ⟨14, _⟩ => ⟨S64x512x2x2048, .f32⟩
  | .hbm, ⟨15, _⟩ => ⟨S_, .f32⟩
  | .hbm, ⟨16, _⟩ => ⟨S64x512x2x2048, .f32⟩
  | .hbm, ⟨17, _⟩ => ⟨S64x512x2x2048, .f32⟩
  | .hbm, ⟨18, _⟩ => ⟨S_, .f32⟩
  | .hbm, ⟨19, _⟩ => ⟨S64x512x2x2048, .f32⟩
  | .hbm, ⟨20, _⟩ => ⟨S64x512x2x2048, .f32⟩
  | .hbm, ⟨21, _⟩ => ⟨S64x512x2x2048, .f32⟩
  | .hbm, ⟨22, _⟩ => ⟨S64x512x2x2048, .f32⟩
  | .hbm, ⟨23, _⟩ => ⟨S_, .f32⟩
  | .hbm, ⟨24, _⟩ => ⟨S64x512x2x2048, .f32⟩
  | .hbm, ⟨25, _⟩ => ⟨S64x512x2x2048, .f32⟩
  | .hbm, ⟨26, _⟩ => ⟨S_, .f32⟩
  | .hbm, ⟨27, _⟩ => ⟨S64x512x2x2048, .f32⟩
  | .hbm, ⟨28, _⟩ => ⟨S64x512x2x2048, .f32⟩
  | .hbm, ⟨29, _⟩ => ⟨S64x512x2x2048, .f32⟩
  | .hbm, ⟨30, _⟩ => ⟨S64x512x1x2048, .f32⟩
  | .hbm, ⟨31, _⟩ => ⟨S64x512x2048, .f32⟩
  | .hbm, ⟨32, _⟩ => ⟨S64x512x1x2048, .f32⟩
  | .hbm, ⟨33, _⟩ => ⟨S64x512x2048, .f32⟩
  | .hbm, ⟨34, _⟩ => ⟨S64x512x2048, .f32⟩
  | .hbm, ⟨35, _⟩ => ⟨S_, .f32⟩
  | .hbm, ⟨36, _⟩ => ⟨S64x512, .f32⟩
  | .hbm, ⟨37, _⟩ => ⟨S_, .f32⟩
  | .hbm, ⟨38, _⟩ => ⟨S64, .f32⟩
  | .hbm, ⟨39, _⟩ => ⟨S64x1, .f32⟩
  | _, _ => ⟨S64x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  bcast_S64x512x2_S64x512x2x1_0_1_2 : S64x512x2.BroadcastsInDim S64x512x2x1 (![0, 1, 2] : Fin 3 → Fin S64x512x2x1.rank)
  bcast_S1x2x2048_S1x1x2x2048_1_2_3 : S1x2x2048.BroadcastsInDim S1x1x2x2048 (![1, 2, 3] : Fin 3 → Fin S1x1x2x2048.rank)
  bcast_S64x512x2x1_S64x512x2x2048_0_1_2_3 : S64x512x2x1.BroadcastsInDim S64x512x2x2048 (![0, 1, 2, 3] : Fin 4 → Fin S64x512x2x2048.rank)
  bcast_S1x1x2x2048_S64x512x2x2048_0_1_2_3 : S1x1x2x2048.BroadcastsInDim S64x512x2x2048 (![0, 1, 2, 3] : Fin 4 → Fin S64x512x2x2048.rank)
  bcast_S_S64x512x2x2048 : S_.BroadcastsInDim S64x512x2x2048 (![] : Fin 0 → Fin S64x512x2x2048.rank)
  slices_S64x512x2x2048_S64x512x1x2048_0_0_0_0 : S64x512x2x2048.Slices ![0, 0, 0, 0] S64x512x1x2048
  shapeCasts_S64x512x1x2048_S64x512x2048 : S64x512x1x2048.ShapeCasts S64x512x2048
  slices_S64x512x2x2048_S64x512x1x2048_0_0_1_0 : S64x512x2x2048.Slices ![0, 0, 1, 0] S64x512x1x2048
  reducesTo_S64x512x2048_S64x512_d2 : S64x512x2048.ReducesTo [2] S64x512
  h_S_ : 0 < S_.numel
  reducesTo_S64x512_S64_d1 : S64x512.ReducesTo [1] S64
  bcast_S64_S64x1_0 : S64.BroadcastsInDim S64x1 (![0] : Fin 1 → Fin S64x1.rank)

variable [Facts₀]

class Facts : Prop extends Facts₀ where

variable [Facts]
-- ==== Proof.Bump.lean ====
/-
  The bump g(z) = σ(10·z)·σ(−10·z), σ the logistic function, on the extended reals.

  On a real x it is 1 / ((1 + e^(−10x))(1 + e^(10x))) = 1 / (2 + 2·cosh(10x)): an EVEN function of x that does not
  increase as |x| grows, because cosh is even and increasing in |x|. At both infinities one factor is σ(−∞) = 0, so
  g(±∞) = 0, below every other value. Hence on ALL extended reals g(z) = g(|z|), with |z| = max z (−z), and g is
  nonincreasing on the nonnegative half line; `fall u = g (max u 0)` is then an order-reversing function of the whole
  line that agrees with g on the nonnegatives, and g z = fall |z|.

  The float words the two programs spell are read here once: 10, −10, 1, −∞, +∞.
-/
import Idealize.ShloMosaic.PureOps.Ideal
import Mathlib.Analysis.SpecialFunctions.Trigonometric.DerivHyp

noncomputable section

namespace Cert.Bump

open Idealize.ShloMosaic

/-! ## The words -/

theorem ofBits_ten : Ideal.ofBits .f32 0x41200000#32 = ((10 : ℝ) : EReal) := by
  simp [Ideal.ofBits, Ideal.ieee, -EReal.coe_mul]; norm_num

theorem ofBits_negTen : Ideal.ofBits .f32 0xC1200000#32 = ((-10 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_negInf : Ideal.ofBits .f32 0xFF800000#32 = ⊥ := by
  simp [Ideal.ofBits, Ideal.ieee]

theorem ofBits_posInf : Ideal.ofBits .f32 0x7F800000#32 = ⊤ := by
  simp [Ideal.ofBits, Ideal.ieee]

/-! ## On the reals -/

/-- The bump on a real: the product of the two logistic values. -/
def bumpR (x : ℝ) : ℝ := (1 + Real.exp (-(10 * x)))⁻¹ * (1 + Real.exp (-(-10 * x)))⁻¹

/-- (1 + e^(−a))(1 + e^a) = 2 + e^a + e^(−a) = 2 + 2 cosh a. -/
theorem bumpR_eq (x : ℝ) : bumpR x = (2 + 2 * Real.cosh (10 * x))⁻¹ := by
  unfold bumpR
  rw [← mul_inv, Real.cosh_eq, show -(-10 * x) = 10 * x by ring]
  have h : Real.exp (-(10 * x)) * Real.exp (10 * x) = 1 := by
    rw [← Real.exp_add, neg_add_cancel, Real.exp_zero]
  congr 1
  linear_combination h

theorem bumpR_pos (x : ℝ) : 0 < bumpR x := by
  rw [bumpR_eq]
  have := Real.cosh_pos (10 * x)
  positivity

/-- The bump does not increase as |x| grows. -/
theorem bumpR_anti {x y : ℝ} (h : |x| ≤ |y|) : bumpR y ≤ bumpR x := by
  rw [bumpR_eq, bumpR_eq]
  have hc : Real.cosh (10 * x) ≤ Real.cosh (10 * y) := by
    rw [Real.cosh_le_cosh, abs_mul, abs_mul]
    exact mul_le_mul_of_nonneg_left h (abs_nonneg _)
  have hp : 0 < 2 + 2 * Real.cosh (10 * x) := by
    have := Real.cosh_pos (10 * x)
    linarith
  exact inv_anti₀ hp (by linarith)

/-! ## On the extended reals -/

/-- The bump, in the words both programs use: the two logistic values of 10·z and −10·z, multiplied. -/
def bump (z : EReal) : EReal :=
  Ideal.logistic (Ideal.ofBits .f32 0x41200000#32 * z) * Ideal.logistic (Ideal.ofBits .f32 0xC1200000#32 * z)

theorem bump_coe (x : ℝ) : bump (x : EReal) = ((bumpR x : ℝ) : EReal) := by
  unfold bump bumpR
  rw [ofBits_ten, ofBits_negTen, ← EReal.coe_mul, ← EReal.coe_mul, Ideal.logistic_coe, Ideal.logistic_coe,
    ← EReal.coe_mul]

theorem bump_top : bump ⊤ = 0 := by
  unfold bump
  rw [ofBits_ten, ofBits_negTen, EReal.coe_mul_top_of_pos (by norm_num), EReal.coe_mul_top_of_neg (by norm_num),
    Ideal.logistic_top, Ideal.logistic_bot, mul_zero]

theorem bump_bot : bump ⊥ = 0 := by
  unfold bump
  rw [ofBits_ten, ofBits_negTen, EReal.coe_mul_bot_of_pos (by norm_num), EReal.coe_mul_bot_of_neg (by norm_num),
    Ideal.logistic_top, Ideal.logistic_bot, zero_mul]

theorem bump_nonneg (z : EReal) : 0 ≤ bump z := by
  induction z using EReal.rec with
  | bot => rw [bump_bot]
  | coe x => rw [bump_coe]; exact_mod_cast (bumpR_pos x).le
  | top => rw [bump_top]

/-- The absolute value of an extended real, as the kernel's `absf` computes it: the larger of z and −z. -/
theorem abs_coe (x : ℝ) : max (x : EReal) (-(x : EReal)) = ((|x| : ℝ) : EReal) := by
  rw [← EReal.coe_neg, ← EReal.coe_strictMono.monotone.map_max, abs_eq_max_neg]

theorem abs_nonneg (z : EReal) : 0 ≤ max z (-z) := by
  induction z using EReal.rec with
  | bot => rw [EReal.neg_bot, max_eq_right bot_le]; exact le_top
  | coe x => rw [abs_coe]; exact_mod_cast _root_.abs_nonneg x
  | top => rw [EReal.neg_top, max_eq_left bot_le]; exact le_top

/-- The bump is even: its value at z is its value at |z|. -/
theorem bump_abs (z : EReal) : bump (max z (-z)) = bump z := by
  induction z using EReal.rec with
  | bot => rw [EReal.neg_bot, max_eq_right bot_le, bump_top, bump_bot]
  | coe x =>
    rw [abs_coe, bump_coe, bump_coe]
    exact congrArg _ (le_antisymm (bumpR_anti (by rw [abs_abs])) (bumpR_anti (by rw [abs_abs])))
  | top => rw [EReal.neg_top, max_eq_left bot_le]

/-- On the nonnegative extended reals the bump does not increase. -/
theorem bump_anti {u v : EReal} (hu : 0 ≤ u) (huv : u ≤ v) : bump v ≤ bump u := by
  induction v using EReal.rec with
  | bot => exact absurd (hu.trans huv) (by simp)
  | top => rw [bump_top]; exact bump_nonneg u
  | coe y =>
    induction u using EReal.rec with
    | bot => exact absurd hu (by simp)
    | top => exact absurd huv (by simp)
    | coe x =>
      rw [bump_coe, bump_coe]
      have hx : 0 ≤ x := by exact_mod_cast hu
      have hxy : x ≤ y := by exact_mod_cast huv
      exact_mod_cast bumpR_anti (by rw [abs_of_nonneg hx, abs_of_nonneg (hx.trans hxy)]; exact hxy)

/-- The bump of the nonnegative part: an order-reversing function of the whole extended line. -/
def fall (u : EReal) : EReal := bump (max u 0)

theorem fall_antitone : Antitone fall := fun _ _ h => bump_anti (le_max_right _ _) (max_le_max_right 0 h)

theorem fall_of_nonneg {u : EReal} (h : 0 ≤ u) : fall u = bump u := by
  unfold fall
  rw [max_eq_left h]

/-- The bump of z is the fall of |z|. -/
theorem bump_eq_fall_abs (z : EReal) : bump z = fall (max z (-z)) := by
  rw [fall_of_nonneg (abs_nonneg z), bump_abs]

/-- The logistic function spelt out, 1 / (1 + e^(−y)) with the word of 1.0, is the logistic function. -/
theorem div_one_add_exp_neg (y : EReal) :
    Ideal.div (Ideal.ofBits .f32 0x3F800000#32) (Ideal.ofBits .f32 0x3F800000#32 + Ideal.exp (-y)) = Ideal.logistic y := by
  rw [ofBits_one]
  rfl

end Cert.Bump

end
-- ==== Proof.RefRead.lean ====
/-
  The reference, read at an index.

  Its result at row n is the smallest over the 512 places l of the largest over the 2048 places f of the smaller of the two
  bumps g(A[n, l, 0] − B[0, 0, f]) and g(A[n, l, 1] − B[0, 1, f]): the subtraction of the two broadcast arguments, the two
  logistic values spelt as 1 / (1 + e^(−y)) and multiplied, the two channels cut out and compared, a maximum from −∞ along
  the last axis and a minimum from +∞ along the middle one.
-/
import proofs.«137680_j23665269801120_2_alg».proof.Proof.Gen.ReferenceIdeal.Read
import proofs.«137680_j23665269801120_2_alg».proof.Proof.Bump
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Bump (bump)

/-! ## Folds from the infinities -/

/-- A fold of the minimum from the word of +∞ is the infimum. -/
theorem fold_min_posInf {n : Nat} (g : Fin n → EReal) :
    Finset.fold (FloatOps.minimumf (F := Ideal) (φ := .f32)) (Ideal.ofBits .f32 0x7F800000#32) g Finset.univ
      = Finset.univ.inf g := by
  rw [Cert.Bump.ofBits_posInf]; rfl

/-- A fold of the maximum from the word of −∞ is the supremum. -/
theorem fold_max_negInf {n : Nat} (g : Fin n → EReal) :
    Finset.fold (FloatOps.maximumf (F := Ideal) (φ := .f32)) (Ideal.ofBits .f32 0xFF800000#32) g Finset.univ
      = Finset.univ.sup g := by
  rw [Cert.Bump.ofBits_negInf]; rfl

/-! ## The places the layout operations read -/

theorem red1 : S64x512.Reduces [1] S64 := by decide
theorem red2 : S64x512x2048.Reduces [2] S64x512 := by decide

/-- Row n with place l put back on the middle axis is (n, l). -/
theorem lift1 (n : Fin 64) (l : Fin 512) : red1.lift (ix1 n) l = ix2 n l := by
  funext c; apply Fin.ext
  fin_cases c <;> rfl

/-- (n, l) with place f put back on the last axis is (n, l, f). -/
theorem lift2 (n : Fin 64) (l : Fin 512) (f : Fin 2048) : red2.lift (ix2 n l) f = ix3 n l f := by
  funext c; apply Fin.ext
  fin_cases c <;> rfl

/-- Channel 0 at (n, l, f) reads the first argument at (n, l, 0) … -/
theorem idxA0 (n : Fin 64) (l : Fin 512) (f : Fin 2048) :
    idx_main_v0 (idx_main_v2 (idx_main_v22 (idx_main_v23 (ix3 n l f)))) = ix3 n l (0 : Fin 2) := by
  have hn := n.isLt; have hl := l.isLt; have hf := f.isLt
  funext a
  match a with
  | ⟨0, _⟩ => exact Fin.ext (by show ((n.val * 512 + l.val) * 2048 + f.val) / 1048576 = n.val; omega)
  | ⟨1, _⟩ => exact Fin.ext (by show ((n.val * 512 + l.val) * 2048 + f.val) / 2048 % 512 = l.val; omega)
  | ⟨2, _⟩ => exact Fin.ext (by show 0 = 0; rfl)

/-- … and the second at (0, 0, f). -/
theorem idxB0 (n : Fin 64) (l : Fin 512) (f : Fin 2048) :
    idx_main_v1 (idx_main_v3 (idx_main_v22 (idx_main_v23 (ix3 n l f)))) = ix3 (0 : Fin 1) (0 : Fin 2) f := by
  have hn := n.isLt; have hl := l.isLt; have hf := f.isLt
  funext a
  match a with
  | ⟨0, _⟩ => exact Fin.ext (by show 0 = 0; rfl)
  | ⟨1, _⟩ => exact Fin.ext (by show 0 = 0; rfl)
  | ⟨2, _⟩ => exact Fin.ext (by show ((n.val * 512 + l.val) * 2048 + f.val) % 2048 = f.val; omega)

/-- Channel 1 at (n, l, f) reads the first argument at (n, l, 1) … -/
theorem idxA1 (n : Fin 64) (l : Fin 512) (f : Fin 2048) :
    idx_main_v0 (idx_main_v2 (idx_main_v24 (idx_main_v25 (ix3 n l f)))) = ix3 n l (1 : Fin 2) := by
  have hn := n.isLt; have hl := l.isLt; have hf := f.isLt
  funext a
  match a with
  | ⟨0, _⟩ => exact Fin.ext (by show ((n.val * 512 + l.val) * 2048 + f.val) / 1048576 = n.val; omega)
  | ⟨1, _⟩ => exact Fin.ext (by show ((n.val * 512 + l.val) * 2048 + f.val) / 2048 % 512 = l.val; omega)
  | ⟨2, _⟩ => exact Fin.ext (by show 1 + 0 = 1; rfl)

/-- … and the second at (0, 1, f). -/
theorem idxB1 (n : Fin 64) (l : Fin 512) (f : Fin 2048) :
    idx_main_v1 (idx_main_v3 (idx_main_v24 (idx_main_v25 (ix3 n l f)))) = ix3 (0 : Fin 1) (1 : Fin 2) f := by
  have hn := n.isLt; have hl := l.isLt; have hf := f.isLt
  funext a
  match a with
  | ⟨0, _⟩ => exact Fin.ext (by show 0 = 0; rfl)
  | ⟨1, _⟩ => exact Fin.ext (by show 1 + 0 = 1; rfl)
  | ⟨2, _⟩ => exact Fin.ext (by show ((n.val * 512 + l.val) * 2048 + f.val) % 2048 = f.val; omega)

/-! ## The stages -/

/-- The product of the two spelt-out logistic values at a place is the bump of the difference there. -/
theorem v21_apply (x0 : (⟨S64x512x2, .f32⟩ : BufTy).Contents (Elt Ideal)) (x1 : (⟨S1x2x2048, .f32⟩ : BufTy).Contents (Elt Ideal))
    (J : S64x512x2x2048.Idx) :
    val_main_v21 (F := Ideal) x0 x1 J
      = bump (x0 (idx_main_v0 (idx_main_v2 J)) - x1 (idx_main_v1 (idx_main_v3 J))) := by
  simp only [val_main_v21_apply, val_main_v12_apply, val_main_v20_apply, val_main_v11_apply, val_main_v19_apply,
    val_main_v10_apply, val_main_v18_apply, val_main_v9_apply, val_main_v17_apply, val_main_v8_apply, val_main_v16_apply,
    val_main_v7_apply, val_main_v15_apply, val_main_v6_apply, val_main_v14_apply, val_main_v5_apply, val_main_v13_apply,
    val_main_v4_apply, val_main_v2_apply, val_main_v3_apply, val_main_v0_apply, val_main_v1_apply, val_main_cst_apply,
    val_main_cst_0_apply, val_main_cst_1_apply, val_main_cst_2_apply, val_main_cst_3_apply, val_main_cst_4_apply,
    Ideal.mulf_def, Ideal.hostDivf_def, Ideal.addf_def, Ideal.hostUnary_exp_def, Ideal.hostNegf_def, Ideal.negf_def,
    Ideal.subf_def, Ideal.ofBits_def]
  rw [Cert.Bump.div_one_add_exp_neg, Cert.Bump.div_one_add_exp_neg]
  rfl

/-- The smaller of the two channels' bumps at (n, l, f). -/
theorem v26_apply (x0 : (⟨S64x512x2, .f32⟩ : BufTy).Contents (Elt Ideal)) (x1 : (⟨S1x2x2048, .f32⟩ : BufTy).Contents (Elt Ideal))
    (n : Fin 64) (l : Fin 512) (f : Fin 2048) :
    val_main_v26 (F := Ideal) x0 x1 (ix3 n l f)
      = min (bump (x0 (ix3 n l (0 : Fin 2)) - x1 (ix3 (0 : Fin 1) (0 : Fin 2) f)))
          (bump (x0 (ix3 n l (1 : Fin 2)) - x1 (ix3 (0 : Fin 1) (1 : Fin 2) f))) := by
  rw [val_main_v26_apply, val_main_v23_apply, val_main_v22_apply, val_main_v25_apply, val_main_v24_apply, v21_apply,
    v21_apply, idxA0, idxB0, idxA1, idxB1]
  rfl

/-- The host's maximum along the last axis from −∞, at (n, l): the supremum over the 2048 places. -/
theorem reduce_max_apply (x : S64x512x2048.Idx → Ideal .f32) (init : S_.Idx → Ideal .f32)
    (hinit : init (Shape.Idx.first h_S_) = Ideal.ofBits .f32 0xFF800000#32) (n : Fin 64) (l : Fin 512) :
    Host.reduce FloatOps.maximumf x init reducesTo_S64x512x2048_S64x512_d2 h_S_ (ix2 n l)
      = Finset.univ.sup fun f : Fin 2048 => x (ix3 n l f) := by
  rw [Host.reduce_eq_fold_single FloatOps.maximumf x init reducesTo_S64x512x2048_S64x512_d2 red2 h_S_, hinit]
  refine (fold_max_negInf (n := 2048) _).trans (Finset.sup_congr rfl fun f _ => ?_)
  exact congrArg x (lift2 n l f)

/-- The host's minimum along the middle axis from +∞, at row n: the infimum over the 512 places. -/
theorem reduce_min_apply (x : S64x512.Idx → Ideal .f32) (init : S_.Idx → Ideal .f32)
    (hinit : init (Shape.Idx.first h_S_) = Ideal.ofBits .f32 0x7F800000#32) (n : Fin 64) :
    Host.reduce FloatOps.minimumf x init reducesTo_S64x512_S64_d1 h_S_ (ix1 n)
      = Finset.univ.inf fun l : Fin 512 => x (ix2 n l) := by
  rw [Host.reduce_eq_fold_single FloatOps.minimumf x init reducesTo_S64x512_S64_d1 red1 h_S_, hinit]
  refine (fold_min_posInf (n := 512) _).trans (Finset.inf_congr rfl fun l _ => ?_)
  exact congrArg x (lift1 n l)

/-- The largest over f at (n, l). -/
theorem v27_apply (x0 : (⟨S64x512x2, .f32⟩ : BufTy).Contents (Elt Ideal)) (x1 : (⟨S1x2x2048, .f32⟩ : BufTy).Contents (Elt Ideal))
    (n : Fin 64) (l : Fin 512) :
    val_main_v27 (F := Ideal) x0 x1 (ix2 n l)
      = Finset.univ.sup fun f : Fin 2048 =>
          min (bump (x0 (ix3 n l (0 : Fin 2)) - x1 (ix3 (0 : Fin 1) (0 : Fin 2) f)))
            (bump (x0 (ix3 n l (1 : Fin 2)) - x1 (ix3 (0 : Fin 1) (1 : Fin 2) f))) := by
  unfold val_main_v27
  rw [reduce_max_apply _ _ rfl n l]
  exact Finset.sup_congr rfl fun f _ => v26_apply x0 x1 n l f

/-- The result at row n: the smallest over l of those. -/
theorem v29_apply (x0 : (⟨S64x512x2, .f32⟩ : BufTy).Contents (Elt Ideal)) (x1 : (⟨S1x2x2048, .f32⟩ : BufTy).Contents (Elt Ideal))
    (n : Fin 64) (u : Fin 1) :
    val_main_v29 (F := Ideal) x0 x1 (ix2 n u)
      = Finset.univ.inf fun l : Fin 512 => Finset.univ.sup fun f : Fin 2048 =>
          min (bump (x0 (ix3 n l (0 : Fin 2)) - x1 (ix3 (0 : Fin 1) (0 : Fin 2) f)))
            (bump (x0 (ix3 n l (1 : Fin 2)) - x1 (ix3 (0 : Fin 1) (1 : Fin 2) f))) := by
  have hj : idx_main_v29 (ix2 n u) = ix1 n := by
    funext a
    match a with
    | ⟨0, _⟩ => rfl
  rw [val_main_v29_apply, hj]
  unfold val_main_v28
  rw [reduce_min_apply _ _ rfl n]
  exact Finset.inf_congr rfl fun l _ => v27_apply x0 x1 n l

end Cert.ReferenceIdeal.RefValue

end
-- ==== Proof.LibMinMax.lean ====
/-
  Minima and maxima of finitely many values of a linear order with a least and a greatest element, under an
  order-reversing function ψ.

  ψ exchanges them: ψ of a largest is the smallest of the ψ's, ψ of the infimum of a nonempty finite family is the
  supremum of its ψ's (the infimum is attained), and likewise with the two exchanged. So, for nonempty finite index
  types, the smallest over l of the largest over f of min (ψ (a l f)) (ψ (b l f)) is ψ of the largest over l of the
  smallest over f of max (a l f) (b l f).

  A maximum over 512 places taken in four runs of 128, each folded into a running maximum that starts at the least
  element, is the maximum over the 512 places.
-/
import Mathlib.Data.Finset.Lattice.Fold
import Mathlib.Data.Fintype.Basic
import Mathlib.Order.Monotone.Basic
import Mathlib.Order.Lattice

namespace Cert.MinMax

variable {α : Type*} [LinearOrder α] [BoundedOrder α] {ι κ : Type*}

/-- A fold of `max` from the least element is the supremum. -/
theorem fold_max_bot (s : Finset ι) (f : ι → α) : s.fold max ⊥ f = s.sup f := rfl

/-- A fold of `min` from the greatest element is the infimum. -/
theorem fold_min_top (s : Finset ι) (f : ι → α) : s.fold min ⊤ f = s.inf f := rfl

/-- An order-reversing function takes the infimum of a nonempty finite family to the supremum of its values. -/
theorem antitone_inf {ψ : α → α} (hψ : Antitone ψ) {s : Finset ι} (hs : s.Nonempty) (f : ι → α) :
    ψ (s.inf f) = s.sup fun i => ψ (f i) := by
  apply le_antisymm
  · obtain ⟨i, hi, e⟩ := Finset.exists_mem_eq_inf s hs f
    rw [e]
    exact Finset.le_sup (f := fun i => ψ (f i)) hi
  · exact Finset.sup_le fun i hi => hψ (Finset.inf_le hi)

/-- … and the supremum to the infimum. -/
theorem antitone_sup {ψ : α → α} (hψ : Antitone ψ) {s : Finset ι} (hs : s.Nonempty) (f : ι → α) :
    ψ (s.sup f) = s.inf fun i => ψ (f i) := by
  apply le_antisymm
  · exact Finset.le_inf fun i hi => hψ (Finset.le_sup hi)
  · obtain ⟨i, hi, e⟩ := Finset.exists_mem_eq_sup s hs f
    rw [e]
    exact Finset.inf_le (f := fun i => ψ (f i)) hi

/-- Min over l of max over f of the smaller of two ψ's is ψ of max over l of min over f of the larger of the two. -/
theorem inf_sup_min_eq [Fintype ι] [Fintype κ] [Nonempty ι] [Nonempty κ] {ψ : α → α} (hψ : Antitone ψ)
    (a b : ι → κ → α) :
    (Finset.univ.inf fun l => Finset.univ.sup fun f => min (ψ (a l f)) (ψ (b l f)))
      = ψ (Finset.univ.sup fun l => Finset.univ.inf fun f => max (a l f) (b l f)) := by
  rw [antitone_sup hψ Finset.univ_nonempty]
  refine Finset.inf_congr rfl fun l _ => ?_
  rw [antitone_inf hψ Finset.univ_nonempty]
  exact Finset.sup_congr rfl fun f _ => (hψ.map_max).symm

/-- The supremum over the 128 places of run `j` of the four. -/
def tile (X : Fin 512 → α) (j : Fin 4) : α :=
  Finset.univ.sup fun r : Fin 128 => X ⟨128 * j.val + r.val, by have := j.isLt; have := r.isLt; omega⟩

/-- The running maximum over the four runs, from the least element, is the supremum over all 512 places. -/
theorem chain_eq_sup (X : Fin 512 → α) :
    max (max (max (max ⊥ (tile X 0)) (tile X 1)) (tile X 2)) (tile X 3) = Finset.univ.sup X := by
  have hT : ∀ j, tile X j ≤ Finset.univ.sup X := fun j =>
    Finset.sup_le fun r _ => Finset.le_sup (f := X) (Finset.mem_univ _)
  apply le_antisymm
  · exact max_le (max_le (max_le (max_le bot_le (hT 0)) (hT 1)) (hT 2)) (hT 3)
  · refine Finset.sup_le fun l _ => ?_
    have hl := l.isLt
    have hmem : ∀ (j : Fin 4) (r : Fin 128), l.val = 128 * j.val + r.val → X l ≤ tile X j := fun j r e => by
      have hl' : l = ⟨128 * j.val + r.val, by have := j.isLt; have := r.isLt; omega⟩ := Fin.ext e
      rw [hl']
      exact Finset.le_sup (f := fun r : Fin 128 => X ⟨128 * j.val + r.val, by have := j.isLt; have := r.isLt; omega⟩)
        (Finset.mem_univ r)
    have hr : l.val % 128 < 128 := Nat.mod_lt _ (by decide)
    rcases (by omega : l.val / 128 = 0 ∨ l.val / 128 = 1 ∨ l.val / 128 = 2 ∨ l.val / 128 = 3) with h | h | h | h
    · exact (hmem 0 ⟨l.val % 128, hr⟩ (by show l.val = 128 * 0 + l.val % 128; omega)).trans
        (le_max_of_le_left (le_max_of_le_left (le_max_of_le_left (le_max_right _ _))))
    · exact (hmem 1 ⟨l.val % 128, hr⟩ (by show l.val = 128 * 1 + l.val % 128; omega)).trans
        (le_max_of_le_left (le_max_of_le_left (le_max_right _ _)))
    · exact (hmem 2 ⟨l.val % 128, hr⟩ (by show l.val = 128 * 2 + l.val % 128; omega)).trans
        (le_max_of_le_left (le_max_right _ _))
    · exact (hmem 3 ⟨l.val % 128, hr⟩ (by show l.val = 128 * 3 + l.val % 128; omega)).trans (le_max_right _ _)

end Cert.MinMax
-- ==== Proof.KerRead.lean ====
/-
  The kernel, read at an index.

  One visit of the body to a block of 8 rows and 128 places folds into the running maximum of row p the tile's value: the
  largest over the tile's 128 places r of the smallest over the 2048 places f of the larger of |a[p, r, 0] − b[0, 0, f]| and
  |a[p, r, 1] − b[0, 1, f]| (the two channels cut out of the block, recast and broadcast against the two rows of b;
  |z| is max z (−z); the minimum along the lanes from +∞, the maximum along the sublanes from −∞). The first visit of a
  run of four starts the running maximum at −∞; the last one replaces it by its bump.

  The block of the first argument at grid point t is rows 8·(t / 4) … and places 128·(t mod 4) …; the block of the second
  argument is the whole of it. So what the run of four visits for rows 8q … 8q + 7 leaves at row n is the bump of the running
  maximum, from −∞, of the four tiles' values over the 512 places of row n.
-/
import proofs.«137680_j23665269801120_2_alg».proof.Proof.Gen.KernelIdeal.Value
import proofs.«137680_j23665269801120_2_alg».proof.Proof.Bump
import proofs.«137680_j23665269801120_2_alg».proof.Proof.LibMinMax
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.KerValue

open Cert.KernelIdeal Cert.KernelIdeal.Gen Cert.KernelIdeal.Value Idealize.ShloMosaic Idealize.ShloMosaic.TcCoe
  Idealize.SL.Sem Idealize.ShloMosaic.ValueIdx
open Cert.Bump (bump)

/-! ## Folds from the infinities -/

theorem fold_min_posInf {n : Nat} (g : Fin n → EReal) :
    Finset.fold (FloatOps.minimumf (F := Ideal) (φ := .f32)) (Ideal.ofBits .f32 0x7F800000#32) g Finset.univ
      = Finset.univ.inf g := by
  rw [Cert.Bump.ofBits_posInf]; rfl

theorem fold_max_negInf {n : Nat} (g : Fin n → EReal) :
    Finset.fold (max : EReal → EReal → EReal) (Ideal.ofBits .f32 0xFF800000#32) g Finset.univ
      = Finset.univ.sup g := by
  rw [Cert.Bump.ofBits_negInf]; rfl

/-! ## The layout operations of the body, each read at an index -/

section Layout
variable {α : Type}

/-- The [1, 2, 2048] block seen as [2, 2048]: (c, f) is (0, c, f). -/
theorem cast_drop_lead (x : S1x2x2048.Idx → α) (h : S1x2x2048.ShapeCasts S2x2048) (c : Fin 2) (f : Fin 2048) :
    shapeCast S2x2048 x h (ix2 c f) = x (ix3 (0 : Fin 1) c f) :=
  shapeCast_1ab_ab_apply x h c f

/-- One channel cut out of the [8, 128, 2] block: (p, r, 0) of the cut is (p, r, o). -/
theorem slice_chan (x : S8x128x2.Idx → α) (o : Nat) (ho : o < 2) (h : S8x128x2.Slices ![0, 0, o] S8x128x1)
    (p : Fin 8) (r : Fin 128) (u : Fin 1) :
    extractStridedSlice S8x128x1 ![0, 0, o] x h (ix3 p r u) = x (ix3 p r (⟨o, ho⟩ : Fin 2)) :=
  extractStridedSlice_apply _ x h _ _ (fun a => match a with
    | ⟨0, _⟩ => by show p.val = 0 + p.val; omega
    | ⟨1, _⟩ => by show r.val = 0 + r.val; omega
    | ⟨2, _⟩ => by show o = o + u.val; omega)

/-- The trailing unit axis dropped: (p, r) is (p, r, 0). -/
theorem cast_drop_trail (x : S8x128x1.Idx → α) (h : S8x128x1.ShapeCasts S8x128) (p : Fin 8) (r : Fin 128) :
    shapeCast S8x128 x h (ix2 p r) = x (ix3 p r (0 : Fin 1)) :=
  shapeCast_apply x h _ _ (by
    rw [Shape.rowMajor_val_three, Shape.rowMajor_val_two]
    show (p.val * 128 + r.val) * 1 + 0 = p.val * 128 + r.val
    omega)

/-- … and put back: (p, r, u) is (p, r). -/
theorem cast_add_trail (x : S8x128.Idx → α) (h : S8x128.ShapeCasts S8x128x1) (p : Fin 8) (r : Fin 128) (u : Fin 1) :
    shapeCast S8x128x1 x h (ix3 p r u) = x (ix2 p r) :=
  shapeCast_apply x h _ _ (by
    rw [Shape.rowMajor_val_three, Shape.rowMajor_val_two]
    show p.val * 128 + r.val = (p.val * 128 + r.val) * 1 + u.val
    omega)

/-- One row cut out of the [2, 2048] block: (0, f) of the cut is (o, f). -/
theorem slice_row (x : S2x2048.Idx → α) (o : Nat) (ho : o < 2) (h : S2x2048.Slices ![o, 0] S1x2048) (u : Fin 1)
    (f : Fin 2048) :
    extractStridedSlice S1x2048 ![o, 0] x h (ix2 u f) = x (ix2 (⟨o, ho⟩ : Fin 2) f) :=
  extractStridedSlice_apply _ x h _ _ (fun a => match a with
    | ⟨0, _⟩ => by show o = o + u.val; omega
    | ⟨1, _⟩ => by show f.val = 0 + f.val; omega)

/-- The row as a vector: f is (0, f). -/
theorem cast_row_vec (x : S1x2048.Idx → α) (h : S1x2048.ShapeCasts S2048) (f : Fin 2048) :
    shapeCast S2048 x h (ix1 f) = x (ix2 (0 : Fin 1) f) :=
  shapeCast_1a_a_apply x h f

/-- The vector as [1, 1, 2048]: (u, v, f) is f. -/
theorem cast_vec_lead2 (x : S2048.Idx → α) (h : S2048.ShapeCasts S1x1x2048) (u v : Fin 1) (f : Fin 2048) :
    shapeCast S1x1x2048 x h (ix3 u v f) = x (ix1 f) :=
  shapeCast_apply x h _ _ (by
    rw [Shape.rowMajor_val_three, Shape.rowMajor_val_one]
    show f.val = (u.val * 1 + v.val) * 2048 + f.val
    omega)

/-- The [8, 128, 1] column broadcast along the lanes: (p, r, f) is (p, r, 0). -/
theorem bcast_lanes (x : S8x128x1.Idx → α) (h : S8x128x1.Broadcasts S8x128x2048) (p : Fin 8) (r : Fin 128) (f : Fin 2048) :
    broadcastTo S8x128x2048 x h (ix3 p r f) = x (ix3 p r (0 : Fin 1)) :=
  broadcastTo_apply x h _ _ (fun a => match a with
    | ⟨0, _⟩ => by show p.val = if (8 : Nat) = 1 then 0 else p.val; rw [if_neg (by decide)]
    | ⟨1, _⟩ => by show r.val = if (128 : Nat) = 1 then 0 else r.val; rw [if_neg (by decide)]
    | ⟨2, _⟩ => by show 0 = if (1 : Nat) = 1 then 0 else f.val; rw [if_pos rfl])

/-- The [1, 1, 2048] row broadcast over rows and places: (p, r, f) is (0, 0, f). -/
theorem bcast_rows (x : S1x1x2048.Idx → α) (h : S1x1x2048.Broadcasts S8x128x2048) (p : Fin 8) (r : Fin 128) (f : Fin 2048) :
    broadcastTo S8x128x2048 x h (ix3 p r f) = x (ix3 (0 : Fin 1) (0 : Fin 1) f) :=
  broadcastTo_apply x h _ _ (fun a => match a with
    | ⟨0, _⟩ => by show 0 = if (1 : Nat) = 1 then 0 else p.val; rw [if_pos rfl]
    | ⟨1, _⟩ => by show 0 = if (1 : Nat) = 1 then 0 else r.val; rw [if_pos rfl]
    | ⟨2, _⟩ => by show f.val = if (2048 : Nat) = 1 then 0 else f.val; rw [if_neg (by decide)])

/-- The vector of 8 as an [8, 1] column: (p, u) is p. -/
theorem cast_col (x : S8.Idx → α) (h : S8.ShapeCasts S8x1) (p : Fin 8) (u : Fin 1) :
    shapeCast S8x1 x h (ix2 p u) = x (ix1 p) :=
  shapeCast_apply x h _ _ (by
    rw [Shape.rowMajor_val_two, Shape.rowMajor_val_one]
    show p.val = p.val * 1 + u.val
    omega)

end Layout

/-! ## The two reductions of the body -/

/-- (p, r) with lane f put back is (p, r, f). -/
theorem lift_lane (h : S8x128x2048.Reduces [2] S8x128) (p : Fin 8) (r : Fin 128) (f : Fin 2048) :
    h.lift (ix2 p r) f = ix3 p r f := by
  funext c; apply Fin.ext
  fin_cases c <;> rfl

/-- p with place r put back is (p, r). -/
theorem lift_sublane (h : S8x128.Reduces [1] S8) (p : Fin 8) (r : Fin 128) : h.lift (ix1 p) r = ix2 p r := by
  funext c; apply Fin.ext
  fin_cases c <;> rfl

/-- The minimum along the lanes, from +∞, at (p, r): the infimum over the 2048 lanes. -/
theorem min_lanes (v : FVec Ideal S8x128x2048 .f32) (h : S8x128x2048.Reduces [2] S8x128) (hφ : FKind.Formats .f32)
    (hacc : (0x7F800000#32 : BitVec 32) = FKind.minimumf.neutral .f32 hφ) (p : Fin 8) (r : Fin 128) :
    multiReduction .minimumf [2] S8x128 v 0x7F800000#32 h hφ hacc (ix2 p r)
      = Finset.univ.inf fun f : Fin 2048 => v (ix3 p r f) := by
  rw [multiReduction_minimumf_eq_fold]
  refine (h.fold_filter_drop_single _ _ v (ix2 p r)).trans ?_
  refine (fold_min_posInf (n := 2048) _).trans (Finset.inf_congr rfl fun f _ => ?_)
  exact congrArg v (lift_lane h p r f)

/-- The maximum along the sublanes, from −∞, at p: the supremum over the 128 places. -/
theorem max_sublanes (v : FVec Ideal S8x128 .f32) (h : S8x128.Reduces [1] S8) (hφ : FKind.Formats .f32)
    (hacc : (0xFF800000#32 : BitVec 32) = FKind.maximumf.neutral .f32 hφ) (p : Fin 8) :
    multiReduction .maximumf [1] S8 v 0xFF800000#32 h hφ hacc (ix1 p)
      = Finset.univ.sup fun r : Fin 128 => v (ix2 p r) := by
  refine (Ideal.multiReduction_maximumf_single v _ h hφ hacc (ix1 p)).trans ?_
  refine (fold_max_negInf (n := 128) _).trans (Finset.sup_congr rfl fun r _ => ?_)
  exact congrArg v (lift_sublane h p r)

/-! ## The three stored values at an index -/

theorem absf_apply {s : Shape} (a : FVec Ideal s .f32) (i : s.Idx) : absf a i = max (a i) (-(a i)) := rfl

theorem logistic_apply {s : Shape} (a : FVec Ideal s .f32) (i : s.Idx) : logistic a i = Ideal.logistic (a i) := rfl

/-- A tile's value at row p: the largest over its places of the smallest over the lanes of the larger channel distance. -/
def tileVal (a : Vec Ideal S8x128x2 .f32) (b : Vec Ideal S1x2x2048 .f32) (p : Fin 8) : EReal :=
  Finset.univ.sup fun r : Fin 128 => Finset.univ.inf fun f : Fin 2048 =>
    max (max (a (ix3 p r (0 : Fin 2)) - b (ix3 (0 : Fin 1) (0 : Fin 2) f))
          (-(a (ix3 p r (0 : Fin 2)) - b (ix3 (0 : Fin 1) (0 : Fin 2) f))))
      (max (a (ix3 p r (1 : Fin 2)) - b (ix3 (0 : Fin 1) (1 : Fin 2) f))
          (-(a (ix3 p r (1 : Fin 2)) - b (ix3 (0 : Fin 1) (1 : Fin 2) f))))

/-- The start of a run: −∞ everywhere. -/
theorem pay1_apply (p : Fin 8) (u : Fin 1) : k0_pay1 (F := Ideal) (ix2 p u) = ⊥ := by
  show Ideal.ofBits .f32 0xFF800000#32 = ⊥
  exact Cert.Bump.ofBits_negInf

/-- A visit: the running maximum of row p takes in the tile's value. -/
theorem pay2_apply (a : Vec Ideal S8x128x2 .f32) (b : Vec Ideal S1x2x2048 .f32) (acc : Vec Ideal S8x1 .f32) (p : Fin 8)
    (u : Fin 1) : k0_pay2 (F := Ideal) a b acc (ix2 p u) = max (acc (ix2 p u)) (tileVal a b p) := by
  unfold k0_pay2 tileVal
  dsimp only
  rw [maximumf_apply, shapeCast_self, cast_col]
  refine congrArg (max (acc (ix2 p u))) ?_
  refine (max_sublanes _ _ _ _ p).trans (Finset.sup_congr rfl fun r _ => ?_)
  refine (min_lanes _ _ _ _ p r).trans (Finset.inf_congr rfl fun f _ => ?_)
  rw [maximumf_apply, absf_apply, absf_apply, subf_apply, subf_apply, bcast_lanes, bcast_lanes, bcast_rows, bcast_rows,
    cast_add_trail, cast_add_trail, cast_drop_trail, cast_drop_trail, slice_chan _ 0 (by decide), slice_chan _ 1 (by decide),
    cast_vec_lead2, cast_vec_lead2, cast_row_vec, cast_row_vec, slice_row _ 0 (by decide), slice_row _ 1 (by decide),
    cast_drop_lead, cast_drop_lead]
  rfl

/-- The end of a run: the running maximum is replaced by its bump. -/
theorem pay3_apply (v : Vec Ideal S8x1 .f32) (p : Fin 8) (u : Fin 1) :
    k0_pay3 (F := Ideal) v (ix2 p u) = bump (v (ix2 p u)) := by
  unfold k0_pay3
  rw [mulf_apply, logistic_apply, logistic_apply, mulf_apply, mulf_apply, shapeCast_self]
  rfl

/-- A run of four visits at row p: the bump of the running maximum of the four tiles' values from −∞. -/
theorem run_apply (a0 a1 a2 a3 : Vec Ideal S8x128x2 .f32) (b0 b1 b2 b3 : Vec Ideal S1x2x2048 .f32) (p : Fin 8) (u : Fin 1) :
    k0_pay3 (F := Ideal) (k0_pay2 a3 b3 (k0_pay2 a2 b2 (k0_pay2 a1 b1 (k0_pay2 a0 b0 (k0_pay1 (F := Ideal)))))) (ix2 p u)
      = bump (max (max (max (max ⊥ (tileVal a0 b0 p)) (tileVal a1 b1 p)) (tileVal a2 b2 p)) (tileVal a3 b3 p)) := by
  rw [pay3_apply, pay2_apply, pay2_apply, pay2_apply, pay2_apply, pay1_apply]

end Cert.KernelIdeal.KerValue

end
-- ==== Proof.KerArray.lean ====
/-
  The kernel's result array, read at an index.

  Row n of the result lies in block n / 8 of the output, which the run of grid points 4·(n / 8) … 4·(n / 8) + 3 fills: the
  point 4q + j visits the block of the first argument with rows 8q … 8q + 7 and places 128j … 128j + 127, and the whole
  second argument. So the tile's value that point folds into row n mod 8 is the largest, over the places l of run j of the
  four, of the row's value at place l — the smallest over f of the larger of |A[n, l, 0] − B[0, 0, f]| and
  |A[n, l, 1] − B[0, 1, f]| — and the result at row n is the bump of the largest over all 512 places.
-/
import proofs.«137680_j23665269801120_2_alg».proof.Proof.KerRead

noncomputable section

namespace Cert.KernelIdeal.KerValue

open Cert.KernelIdeal Cert.KernelIdeal.Gen Cert.KernelIdeal.Value Idealize.ShloMosaic Idealize.ShloMosaic.TcCoe
  Idealize.SL.Sem Idealize.ShloMosaic.ValueIdx
open Cert.Bump (bump)

variable (m : (ℓ : Loc nD τ sig) → Buf (Elt Ideal) ℓ)

/-! ## The blocks the grid points visit -/

/-- The first window's block indices at point t: (t / 4, t mod 4, 0). -/
theorem idx_factsA : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)

/-- The second window's block indices at every point: (0, 0, 0). -/
theorem idx_factsB : ∀ t : Fin cfg0.N, win0_1.index t (0 : Fin 3) = 0 ∧ win0_1.index t (1 : Fin 3) = 0
    ∧ win0_1.index t (2 : Fin 3) = 0 :=
  (by decide +kernel : ∀ t : Fin grid0.N, _)

/-- The first argument's block at point t, at (p, r, ch), is the argument at (8·(t / 4) + p, 128·(t mod 4) + r, ch). -/
theorem blockA_apply (c : Dev nD) (t : Fin cfg0.N) (p : Fin 8) (r : Fin 128) (ch : Fin 2) (n : Fin 64) (l : Fin 512)
    (hn : n.val = 8 * (t.val / 4) + p.val) (hl : l.val = 128 * (t.val % 4) + r.val) :
    (iblk (F := Ideal) m c 0 t : Vec Ideal S8x128x2 .f32) (ix3 p r ch)
      = m ((c : Thread nD τ).loc main_arg0) (ix3 n l ch) := by
  obtain ⟨e0, e1, e2⟩ := idx_factsA t
  unfold iblk
  rw [View.read_apply]
  show V m c main_arg0 _ = m ((c : Thread nD τ).loc main_arg0) _
  unfold V
  congr 1
  funext a
  apply Fin.ext
  match a with
  | ⟨0, _⟩ => show win0_0.index t 0 * 8 + 1 * p.val = n.val; rw [e0]; omega
  | ⟨1, _⟩ => show win0_0.index t 1 * 128 + 1 * r.val = l.val; rw [e1]; omega
  | ⟨2, _⟩ => show win0_0.index t 2 * 2 + 1 * ch.val = ch.val; rw [e2]; omega

/-- The second argument's block at any point is the argument. -/
theorem blockB_apply (c : Dev nD) (t : Fin cfg0.N) (u : Fin 1) (ch : Fin 2) (f : Fin 2048) :
    (iblk (F := Ideal) m c 1 t : Vec Ideal S1x2x2048 .f32) (ix3 u ch f)
      = m ((c : Thread nD τ).loc main_arg1) (ix3 u ch f) := by
  obtain ⟨e0, e1, e2⟩ := idx_factsB t
  unfold iblk
  rw [View.read_apply]
  show V m c main_arg1 _ = m ((c : Thread nD τ).loc main_arg1) _
  unfold V
  congr 1
  funext a
  apply Fin.ext
  match a with
  | ⟨0, _⟩ => show win0_1.index t 0 * 1 + 1 * u.val = u.val; rw [e0]; omega
  | ⟨1, _⟩ => show win0_1.index t 1 * 2 + 1 * ch.val = ch.val; rw [e1]; omega
  | ⟨2, _⟩ => show win0_1.index t 2 * 2048 + 1 * f.val = f.val; rw [e2]; omega

/-! ## A row's values -/

/-- Row n's value at place l, of arrays A and B: the smallest over f of the larger of the two channels' distances
    |A[n, l, ·] − B[0, ·, f]|. -/
def placeVal (A : Vec Ideal S64x512x2 .f32) (B : Vec Ideal S1x2x2048 .f32) (n : Fin 64) (l : Fin 512) : EReal :=
  Finset.univ.inf fun f : Fin 2048 =>
    max (max (A (ix3 n l (0 : Fin 2)) - B (ix3 (0 : Fin 1) (0 : Fin 2) f))
          (-(A (ix3 n l (0 : Fin 2)) - B (ix3 (0 : Fin 1) (0 : Fin 2) f))))
      (max (A (ix3 n l (1 : Fin 2)) - B (ix3 (0 : Fin 1) (1 : Fin 2) f))
          (-(A (ix3 n l (1 : Fin 2)) - B (ix3 (0 : Fin 1) (1 : Fin 2) f))))

/-- The tile's value the point t = 4q + j folds into row p of its block is the largest of row n = 8q + p's values over
    run j of the four runs of places. -/
theorem tile_eq (c : Dev nD) (t : Fin cfg0.N) (p : Fin 8) (n : Fin 64) (j : Fin 4)
    (hn : n.val = 8 * (t.val / 4) + p.val) (hj : t.val % 4 = j.val) :
    tileVal (iblk (F := Ideal) m c 0 t) (iblk (F := Ideal) m c 1 t) p = Cert.MinMax.tile (placeVal (m ((c : Thread nD τ).loc main_arg0)) (m ((c : Thread nD τ).loc main_arg1)) n) j := by
  unfold tileVal Cert.MinMax.tile placeVal
  refine Finset.sup_congr rfl fun r _ => Finset.inf_congr rfl fun f _ => ?_
  have hl : (⟨128 * j.val + r.val, by have := j.isLt; have := r.isLt; omega⟩ : Fin 512).val = 128 * (t.val % 4) + r.val := by
    show 128 * j.val + r.val = _
    rw [hj]
  rw [blockA_apply m c t p r 0 n _ hn hl, blockA_apply m c t p r 1 n _ hn hl, blockB_apply, blockB_apply]

/-! ## The run of four visits -/

theorem step2_mid (c : Dev nD) (k : ℕ) (h : k < cfg0.N) (acc : Vec Ideal S8x1 .f32) (hk : k % 4 = 1 ∨ k % 4 = 2) :
    step2 (F := Ideal) m c k h acc = k0_pay2 (iblk m c 0 ⟨k, h⟩) (iblk m c 1 ⟨k, h⟩) acc := by
  unfold step2
  rw [if_pos (show ¬k % 4 = 0 ∧ ¬k % 4 = 3 by omega)]

theorem step2_last (c : Dev nD) (k : ℕ) (h : k < cfg0.N) (acc : Vec Ideal S8x1 .f32) (hk : k % 4 = 3) :
    step2 (F := Ideal) m c k h acc = k0_pay3 (k0_pay2 (iblk m c 0 ⟨k, h⟩) (iblk m c 1 ⟨k, h⟩) acc) := by
  unfold step2
  rw [if_neg (show ¬(¬k % 4 = 0 ∧ ¬k % 4 = 3) by omega), if_pos (show ¬k % 4 = 0 ∧ k % 4 = 3 by omega)]

/-- The fold of a run that starts at a multiple b of four: three visits after the first, the last one with the bump. -/
theorem run_fold (c : Dev nD) (b : ℕ) (hb : b % 4 = 0) (h : b + 3 < cfg0.N) :
    Pipeline.accAt (reset2 (F := Ideal) m c) (step2 m c) b 3 h
      = k0_pay3 (k0_pay2 (iblk m c 0 ⟨b + (2 + 1), h⟩) (iblk m c 1 ⟨b + (2 + 1), h⟩)
          (k0_pay2 (iblk m c 0 ⟨b + (1 + 1), Nat.lt_of_succ_lt h⟩) (iblk m c 1 ⟨b + (1 + 1), Nat.lt_of_succ_lt h⟩)
            (k0_pay2 (iblk m c 0 ⟨b + (0 + 1), Nat.lt_of_succ_lt (Nat.lt_of_succ_lt h)⟩)
              (iblk m c 1 ⟨b + (0 + 1), Nat.lt_of_succ_lt (Nat.lt_of_succ_lt h)⟩)
              (k0_pay2 (iblk m c 0 ⟨b, Nat.lt_of_succ_lt (Nat.lt_of_succ_lt (Nat.lt_of_succ_lt h))⟩)
                (iblk m c 1 ⟨b, Nat.lt_of_succ_lt (Nat.lt_of_succ_lt (Nat.lt_of_succ_lt h))⟩) (k0_pay1 (F := Ideal)))))) := by
  rw [Pipeline.accAt_succ, Pipeline.accAt_succ, Pipeline.accAt_succ, Pipeline.accAt_zero,
    step2_last m c _ _ _ (show (b + (2 + 1)) % 4 = 3 by omega),
    step2_mid m c _ _ _ (show (b + (1 + 1)) % 4 = 1 ∨ (b + (1 + 1)) % 4 = 2 by omega),
    step2_mid m c _ _ _ (show (b + (0 + 1)) % 4 = 1 ∨ (b + (0 + 1)) % 4 = 2 by omega)]
  rfl

/-! ## The result array -/

/-- Row n of the result: the bump of the largest of the row's values over the 512 places. -/
theorem G2_apply (c : Dev nD) (n : Fin 64) (u : Fin 1) :
    G2 (F := Ideal) m c (ix2 n u) = bump (Finset.univ.sup (placeVal (m ((c : Thread nD τ).loc main_arg0)) (m ((c : Thread nD τ).loc main_arg1)) n)) := by
  have hnlt := n.isLt
  have hult := u.isLt
  have hN : cfg0.N = 32 := N_0
  have hq : run2Of (ix2 n u) = n.val / 8 := by
    show 1 * (n.val / 8 - 0) + 1 * (u.val / 1 - 0) = n.val / 8
    omega
  have hlt : 4 * run2Of (ix2 n u) + 3 < cfg0.N := by rw [hq, hN]; omega
  have hloc : loc2Of (ix2 n u)
      = ix2 (⟨n.val % 8, Nat.mod_lt _ (by decide)⟩ : Fin 8) (⟨u.val % 1, Nat.mod_lt _ (by decide)⟩ : Fin 1) := by
    funext a
    match a with
    | ⟨0, _⟩ => rfl
    | ⟨1, _⟩ => rfl
  unfold G2
  rw [dif_pos hlt, hloc, run_fold m c (4 * run2Of (ix2 n u)) (by omega) hlt, run_apply, ← Cert.MinMax.chain_eq_sup]
  refine congrArg bump (congrArg₂ max (congrArg₂ max (congrArg₂ max (congrArg (max ⊥) ?_) ?_) ?_) ?_)
  · exact tile_eq m c _ _ n 0 (by show n.val = 8 * ((4 * run2Of (ix2 n u)) / 4) + n.val % 8; rw [hq]; omega)
      (by show (4 * run2Of (ix2 n u)) % 4 = 0; omega)
  · exact tile_eq m c _ _ n 1 (by show n.val = 8 * ((4 * run2Of (ix2 n u) + (0 + 1)) / 4) + n.val % 8; rw [hq]; omega)
      (by show (4 * run2Of (ix2 n u) + (0 + 1)) % 4 = 1; omega)
  · exact tile_eq m c _ _ n 2 (by show n.val = 8 * ((4 * run2Of (ix2 n u) + (1 + 1)) / 4) + n.val % 8; rw [hq]; omega)
      (by show (4 * run2Of (ix2 n u) + (1 + 1)) % 4 = 2; omega)
  · exact tile_eq m c _ _ n 3 (by show n.val = 8 * ((4 * run2Of (ix2 n u) + (2 + 1)) / 4) + n.val % 8; rw [hq]; omega)
      (by show (4 * run2Of (ix2 n u) + (2 + 1)) % 4 = 3; omega)

end Cert.KernelIdeal.KerValue

end
-- ==== Proof.Bridge.lean ====
/-
  The law that joins the two programs.

  For finitely many extended reals c0 l f and c1 l f (l and f ranging over nonempty finite types), the smallest over l of
  the largest over f of the smaller of the bumps g(c0 l f), g(c1 l f) is the bump of the largest over l of the smallest
  over f of the larger of |c0 l f|, |c1 l f|: g z is the fall of |z|, the fall reverses the order, and the value inside is
  nonnegative, where the fall is the bump. No finiteness of the c's is used: at ±∞ the bump is 0 and |±∞| = +∞.
-/
import proofs.«137680_j23665269801120_2_alg».proof.Proof.Bump
import proofs.«137680_j23665269801120_2_alg».proof.Proof.LibMinMax

noncomputable section

namespace Cert.Bump

theorem bump_inf_sup {ι κ : Type} [Fintype ι] [Fintype κ] [Nonempty ι] [Nonempty κ] (c0 c1 : ι → κ → EReal) :
    (Finset.univ.inf fun l => Finset.univ.sup fun f => min (bump (c0 l f)) (bump (c1 l f)))
      = bump (Finset.univ.sup fun l => Finset.univ.inf fun f =>
          max (max (c0 l f) (-(c0 l f))) (max (c1 l f) (-(c1 l f)))) := by
  have h0 : 0 ≤ Finset.univ.sup fun l => Finset.univ.inf fun f =>
      max (max (c0 l f) (-(c0 l f))) (max (c1 l f) (-(c1 l f))) := by
    obtain ⟨l0⟩ := ‹Nonempty ι›
    exact le_trans (Finset.le_inf fun f _ => le_max_of_le_left (abs_nonneg _))
      (Finset.le_sup (f := fun l => Finset.univ.inf fun f =>
        max (max (c0 l f) (-(c0 l f))) (max (c1 l f) (-(c1 l f)))) (Finset.mem_univ l0))
  rw [← fall_of_nonneg h0, ← Cert.MinMax.inf_sup_min_eq fall_antitone]
  refine Finset.inf_congr rfl fun l _ => Finset.sup_congr rfl fun f _ => ?_
  rw [bump_eq_fall_abs, bump_eq_fall_abs]

end Cert.Bump

end
-- ==== Proof.lean ====
/-
  The kernel keeps, for each of the 64 rows, a running maximum over the 512 places l of the smallest over the 2048
  places f of the larger channel distance max(|A[n, l, 0] − B[0, 0, f]|, |A[n, l, 1] − B[0, 1, f]|), and applies the bump
  g(z) = σ(10 z)·σ(−10 z) once at the end; the reference applies the bump to every difference, takes the smaller of the two
  channels, the largest over f and the smallest over l. The bump is even and does not increase with |z|, so it turns the
  larger distance into the smaller bump, a minimum into a maximum and a maximum into a minimum: the two results are equal
  as extended reals, for all argument values.

  The kernel's result array as a function of the arguments is read off its generated value leg (Proof/KerRead.lean,
  Proof/KerArray.lean), the reference's off its generated run (Proof/RefRead.lean); the law between them is
  Proof/Bump.lean, Proof/LibMinMax.lean and Proof/Bridge.lean.
-/
import proofs.«137680_j23665269801120_2_alg».proof.Defs
import proofs.«137680_j23665269801120_2_alg».proof.Proof.Gen.Kernel.Frame
import proofs.«137680_j23665269801120_2_alg».proof.Proof.Gen.KernelIdeal.Value
import proofs.«137680_j23665269801120_2_alg».proof.Proof.Gen.Pre_finite_inputs
import proofs.«137680_j23665269801120_2_alg».proof.Proof.Gen.ReferenceIdeal.Run
import proofs.«137680_j23665269801120_2_alg».proof.Proof.RefRead
import proofs.«137680_j23665269801120_2_alg».proof.Proof.KerArray
import proofs.«137680_j23665269801120_2_alg».proof.Proof.Bridge
import Idealize.ShloMosaic.Adequacy
import Idealize.ShloMosaic.Init

noncomputable section

namespace Cert.Proof

open Idealize.ShloMosaic Idealize.ShloMosaic.ValueIdx Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- The reference's result, as a function of the kernel's argument arrays, is the kernel's result array: at row n both
    are the bump of the largest over l of the smallest over f of the larger channel distance. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v29 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Value.G2 m c := by
  funext i
  obtain ⟨n, u, rfl⟩ : ∃ (n : Fin 64) (u : Fin 1), i = ix2 n u := ⟨i 0, i 1, eq_ix2 i⟩
  rw [Cert.KernelIdeal.KerValue.G2_apply m c n u, Cert.ReferenceIdeal.RefValue.v29_apply _ _ n u,
    Cert.Bump.bump_inf_sup]
  rfl

theorem algebraic_KernelIdeal_ReferenceIdeal : algebraic_KernelIdeal_ReferenceIdeal := by
  intro m ρ m' ρ' _ hagree
  refine ⟨fun c => Cert.KernelIdeal.Value.G2 m c, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v29_eq, (hagree c).1, (hagree c).2]
  exact result_eq m c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
